-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2x8192x1024 : Shape := ⟨3, ![2, 8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x1024 .f32) (main_arg1 : FVec F S2x8192x1024 .f32) (main_arg2 : FVec F S4096x1024 .f32) (main_arg3 : FVec F S4096 .f32) (main_arg4 : FVec F S4096x1024 .f32) (main_arg5 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x8192x1024 .f32 := Host.absf main_arg1
  let main_cst_0 : FVec F S_ .f32 := constant S_ .f32 0x7F800000#32
  let main_v5 : FVec F S2x8192x1024 .f32 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x1024 : Shape := ⟨2, ![8192, 1024]⟩
abbrev S2x8192x1024 : Shape := ⟨3, ![2, 8192, 1024]⟩
abbrev S4096x1024 : Shape := ⟨2, ![4096, 1024]⟩
abbrev S4096 : Shape := ⟨1, ![4096]⟩
abbrev S1x8192x1024 : Shape := ⟨3, ![1, 8192, 1024]⟩
abbrev S1x4096 : Shape := ⟨2, ![1, 4096]⟩
abbrev S256x1024 : Shape := ⟨2, ![256, 1024]⟩
abbrev S2x256x1024 : Shape := ⟨3, ![2, 256, 1024]⟩
abbrev S256x4096 : Shape := ⟨2, ![256, 4096]⟩
abbrev S1x256x1024 : Shape := ⟨3, ![1, 256, 1024]⟩

abbrev nBuf : Space → Nat
  | .hbm => 15
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S4096x1024, .bf16⟩
  | .hbm, ⟨11, _⟩ => ⟨S4096x1024, .bf16⟩
  | .hbm, ⟨12, _⟩ => ⟨S4096, .f32⟩
  | .hbm, ⟨13, _⟩ => ⟨S1x4096, .f32⟩
  | .hbm, ⟨14, _⟩ => ⟨S2x8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S2x256x1024, .f32⟩
  | .local _ .vmem, ⟨10, _⟩ => ⟨S2x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x8192x1024_S1x8192x1024_0_0_0 : S2x8192x1024.Slices ![0, 0, 0] S1x8192x1024
  shapeCasts_S1x8192x1024_S8192x1024 : S1x8192x1024.ShapeCasts S8192x1024
  slices_S2x8192x1024_S1x8192x1024_1_0_0 : S2x8192x1024.Slices ![1, 0, 0] S1x8192x1024
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S2x256x1024_S1x256x1024_0_0_0 : ∀ a, (![0, 0, 0] : Fin 3 → Nat) a + S1x256x1024.size a ≤ S2x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S2x256x1024_S1x256x1024_1_0_0 : ∀ a, (![1, 0, 0] : Fin 3 → Nat) a + S1x256x1024.size a ≤ S2x256x1024.size a
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256x1024.size a ≤ S2x8192x1024.size a
  hwx0_6 : ∀ i : grid0.Coords, EltTy.bits .f32 = 32 ∨ (Rect.block (s := S2x8192x1024) S2x256x1024.size (cc0_transform_6 i) (hinb0_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2x8192x1024 : Shape := ⟨3, ![2, 8192, 1024]⟩
abbrev S4096x1024 : Shape := ⟨2, ![4096, 1024]⟩
abbrev S4096 : Shape := ⟨1, ![4096]⟩
abbrev S1x8192x1024 : Shape := ⟨3, ![1, 8192, 1024]⟩
abbrev S8192x4096 : Shape := ⟨2, ![8192, 4096]⟩
abbrev S1x4096 : Shape := ⟨2, ![1, 4096]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x8192x1024, .f32⟩
  | .hbm, ⟨54, _⟩ => ⟨S1x8192x1024, .f32⟩
  | .hbm, ⟨55, _⟩ => ⟨S2x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  slices_S2x8192x1024_S1x8192x1024_0_0_0 : S2x8192x1024.Slices ![0, 0, 0] S1x8192x1024
  shapeCasts_S1x8192x1024_S8192x1024 : S1x8192x1024.ShapeCasts S8192x1024
  slices_S2x8192x1024_S1x8192x1024_1_0_0 : S2x8192x1024.Slices ![1, 0, 0] S1x8192x1024
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.LstmCell.lean ====
/-
  One step of an LSTM cell on the extended reals, one batch row at a time.

  A row has an input `x`, a previous hidden state `h` and a previous cell state `c`, 1024 numbers each. The four gates
  (input, forget, candidate, output — in that order) are stacked into 4·1024 columns: column `q` has the pre-activation
  `x · Wx[q, ·] + h · Wh[q, ·] + b[q]`, the weights stored one ROW per gate column. With `σ` the logistic function,

      c' = σ(forget) · c + σ(input) · tanh(candidate)        h' = σ(output) · tanh(c')

  coordinate by coordinate. `cell` is the step over a whole batch: plane 0 of the result holds `h'`, plane 1 holds `c'`,
  the previous `h` and `c` being planes 0 and 1 of the state array, and the bias the sum of two bias vectors.

  Every function involved (`+`, `·`, `σ`, `tanh`) is total on the extended reals, and nothing below divides, cancels
  or distributes: the two ways of adding up a gate's terms (`gate_regroup`) differ by commutativity and associativity of `+`
  alone, so no finiteness is ever needed.
-/
import Idealize.ShloMosaic.PureOps.Ideal.Laws
import Idealize.ShloMosaic.Lib.ValueIdx

noncomputable section

open scoped BigOperators

namespace Cert.LstmCell

open Idealize.ShloMosaic Idealize.ShloMosaic.ValueIdx

/-- Column `j` of gate `g` (0 input, 1 forget, 2 candidate, 3 output) among the 4·1024 stacked gate columns. -/
def col (g : Fin 4) (j : Fin 1024) : Fin 4096 := ⟨g.val * 1024 + j.val, by have := g.isLt; have := j.isLt; omega⟩

@[simp] theorem col_val (g : Fin 4) (j : Fin 1024) : (col g j).val = g.val * 1024 + j.val := rfl

/-- The pre-activation of gate column `q` for one row: the row's input against row `q` of `Wx`, its hidden state against row
    `q` of `Wh`, and the bias. -/
def gate (x h : Fin 1024 → EReal) (Wx Wh : Fin 4096 → Fin 1024 → EReal) (b : Fin 4096 → EReal) (q : Fin 4096) : EReal :=
  (∑ k : Fin 1024, x k * Wx q k) + (∑ k : Fin 1024, h k * Wh q k) + b q

/-- The new cell state of one row at coordinate `j`: `σ(forget) · c + σ(input) · tanh(candidate)`. -/
def newC (x h c : Fin 1024 → EReal) (Wx Wh : Fin 4096 → Fin 1024 → EReal) (b : Fin 4096 → EReal) (j : Fin 1024) : EReal :=
  Ideal.logistic (gate x h Wx Wh b (col 1 j)) * c j
    + Ideal.logistic (gate x h Wx Wh b (col 0 j)) * Ideal.tanh (gate x h Wx Wh b (col 2 j))

/-- The new hidden state of one row at coordinate `j`: `σ(output) · tanh(c')`. -/
def newH (x h c : Fin 1024 → EReal) (Wx Wh : Fin 4096 → Fin 1024 → EReal) (b : Fin 4096 → EReal) (j : Fin 1024) : EReal :=
  Ideal.logistic (gate x h Wx Wh b (col 3 j)) * Ideal.tanh (newC x h c Wx Wh b j)

/-- Adding the two biases one after the other, around the second product, is adding their sum at the end: `+` on the
    extended reals is commutative and associative (it is not cancellative, and nothing here cancels). -/
theorem gate_regroup (A B bx bh : EReal) : A + bx + B + bh = A + B + (bx + bh) := by
  rw [add_assoc (A + bx) B bh, add_add_add_comm A bx B bh]

/-! ## The step over a whole batch -/

variable (X : FVec Ideal ⟨2, ![8192, 1024]⟩ .f32) (S : FVec Ideal ⟨3, ![2, 8192, 1024]⟩ .f32)
  (Wx Wh : FVec Ideal ⟨2, ![4096, 1024]⟩ .f32) (bx bh : FVec Ideal ⟨1, ![4096]⟩ .f32)

/-- Row `r`'s new cell state, from row `r` of the input and of the two planes of the state. -/
def state (r : Fin 8192) (j : Fin 1024) : EReal :=
  newC (fun k => X (ix2 r k)) (fun k => S (ix3 0 r k)) (fun k => S (ix3 1 r k))
    (fun q k => Wx (ix2 q k)) (fun q k => Wh (ix2 q k)) (fun q => bx (ix1 q) + bh (ix1 q)) j

/-- Row `r`'s new hidden state. -/
def hidden (r : Fin 8192) (j : Fin 1024) : EReal :=
  newH (fun k => X (ix2 r k)) (fun k => S (ix3 0 r k)) (fun k => S (ix3 1 r k))
    (fun q k => Wx (ix2 q k)) (fun q k => Wh (ix2 q k)) (fun q => bx (ix1 q) + bh (ix1 q)) j

/-- The step's result: plane 0 the new hidden states, plane 1 the new cell states. -/
def cell : FVec Ideal ⟨3, ![2, 8192, 1024]⟩ .f32 := fun i =>
  if (i 0).val = 0 then hidden X S Wx Wh bx bh (i 1) (i 2) else state X S Wx Wh bx bh (i 1) (i 2)

theorem cell_plane0 (r : Fin 8192) (j : Fin 1024) : cell X S Wx Wh bx bh (ix3 0 r j) = hidden X S Wx Wh bx bh r j := rfl

theorem cell_plane1 (r : Fin 8192) (j : Fin 1024) : cell X S Wx Wh bx bh (ix3 1 r j) = state X S Wx Wh bx bh r j := rfl

end Cert.LstmCell

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.KernelBlock.lean ====
/-
  What the kernel's body leaves in its output buffer, as the LSTM step of the 256 batch rows it was given.

  The body holds a block of 256 rows of the input (`v0`), of the previous hidden state (`v2`) and of the previous cell state
  (`v24`), both whole weight matrices (`v5`, `v7`: 4096 gate columns, one ROW each) and the one bias row (`v12`). It forms
  all 4096 gate pre-activations of every row with two matrix products that contract the last axis of both operands — entry
  `(p, q)` is `∑ k, v0[p, k] · v5[q, k] + ∑ k, v2[p, k] · v7[q, k]` — adds the bias row to every row, cuts the result into the
  four gates' column groups, and combines them coordinate by coordinate. On the extended reals the narrowing of the operands
  to sixteen bits before the products is the identity, so entry `(p, j)` of what it writes is exactly `LstmCell.newH` /
  `LstmCell.newC` of row `p` of the three blocks: plane 0 of the output buffer the new hidden state, plane 1 the new cell state.
-/
import proofs.«121138_j72997264163163_2_alg».proof.Proof.Gen.KernelIdeal.Frame
import proofs.«121138_j72997264163163_2_alg».proof.Proof.LstmCell
import proofs.«121138_j72997264163163_2_alg».proof.Proof.LibDotRows
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx Cert.LstmCell Cert.Lib.DotRows

/-- The logistic function and the hyperbolic tangent act on an array entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

section Payloads

variable (v0 v2 v24 : Vec Ideal S256x1024 .f32) (v5 v7 : Vec Ideal S4096x1024 .bf16) (v12 : Vec Ideal S1x4096 .f32)

/-- THE GATES. Entry `(p, q)` of the 256 × 4096 array of pre-activations is gate column `q` of row `p`: the two products of
    rows (each into a zero accumulator) added, then the bias row's entry `q`, which the broadcast copies into every row. -/
theorem gates_apply (p : Fin 256) (q : Fin 4096) :
    k0_pay1 (F := Ideal) v0 v2 v5 v7 v12 (ix2 p q)
      = gate (fun k => v0 (ix2 p k)) (fun k => v2 (ix2 p k)) (fun q k => v5 (ix2 q k)) (fun q k => v7 (ix2 q k))
          (fun q => v12 (ix2 0 q)) q := by
  unfold k0_pay1 gate
  dsimp only [matmul]
  simp only [shapeCast_self]
  rw [addf_apply, addf_apply, broadcastTo_1b_ab_apply,
    matmul_rows_apply dot_S256x1024_S4096x1024_S256x4096_1_1_0_0_n_n rfl,
    matmul_rows_apply dot_S256x1024_S4096x1024_S256x4096_1_1_0_0_n_n rfl]
  rfl

/-- THE NEW CELL STATE. The forget, input and candidate gates of coordinate `j` are columns `1024 + j`, `j` and `2048 + j`
    of the pre-activations (the three column cuts), so entry `(p, j)` is `σ(forget) · c + σ(input) · tanh(candidate)` of row `p`. -/
theorem newC_apply (p : Fin 256) (j : Fin 1024) :
    k0_pay2 (F := Ideal) v0 v2 v5 v7 v12 v24 (ix2 p j)
      = newC (fun k => v0 (ix2 p k)) (fun k => v2 (ix2 p k)) (fun k => v24 (ix2 p k)) (fun q k => v5 (ix2 q k))
          (fun q k => v7 (ix2 q k)) (fun q => v12 (ix2 0 q)) j := by
  unfold k0_pay2 newC
  dsimp only
  simp only [shapeCast_self]
  rw [addf_apply, mulf_apply, mulf_apply, logistic_apply, logistic_apply, tanh_apply,
    slice2_axis1_apply 1024 _ _ p j (col 1 j) rfl, slice2_axis1_apply 0 _ _ p j (col 0 j) (by simp),
    slice2_axis1_apply 2048 _ _ p j (col 2 j) rfl, gates_apply, gates_apply, gates_apply]

/-- THE NEW HIDDEN STATE, as stored (a leading unit axis added): the output gate is column `3072 + j`, and entry `(0, p, j)` is
    `σ(output) · tanh(c')` of row `p`. -/
theorem newH_apply (u : Fin 1) (p : Fin 256) (j : Fin 1024) :
    k0_pay3 (F := Ideal) v0 v2 v5 v7 v12 v24 (ix3 u p j)
      = newH (fun k => v0 (ix2 p k)) (fun k => v2 (ix2 p k)) (fun k => v24 (ix2 p k)) (fun q k => v5 (ix2 q k))
          (fun q k => v7 (ix2 q k)) (fun q => v12 (ix2 0 q)) j := by
  unfold k0_pay3 newH
  rw [shapeCast_ab_1ab_apply, mulf_apply, logistic_apply, tanh_apply,
    slice2_axis1_apply 3072 _ _ p j (col 3 j) rfl, gates_apply, newC_apply]

/-- The new cell state as stored, with the same leading unit axis. -/
theorem stored_newC_apply (u : Fin 1) (p : Fin 256) (j : Fin 1024) :
    k0_pay4 (F := Ideal) v0 v2 v5 v7 v12 v24 (ix3 u p j)
      = newC (fun k => v0 (ix2 p k)) (fun k => v2 (ix2 p k)) (fun k => v24 (ix2 p k)) (fun q k => v5 (ix2 q k))
          (fun q k => v7 (ix2 q k)) (fun q => v12 (ix2 0 q)) j := by
  unfold k0_pay4
  rw [shapeCast_ab_1ab_apply, newC_apply]

end Payloads

/-! ## The output buffer: two stores, one per plane -/

/-- The first store's rectangle is plane 0 of the buffer, the second's plane 1: local index `(0, p, j)` lands at `(0, p, j)`,
    resp. `(1, p, j)`. -/
theorem plane0_emb (p : Fin 256) (j : Fin 1024) : r0_3.emb (ix3 (0 : Fin 1) p j) = ix3 (0 : Fin 2) p j :=
  funext fun a => Fin.ext (by
    match a with
    | ⟨0, _⟩ => rfl
    | ⟨1, _⟩ => show 0 + 1 * p.val = p.val; omega
    | ⟨2, _⟩ => show 0 + 1 * j.val = j.val; omega)

theorem plane1_emb (p : Fin 256) (j : Fin 1024) : r0_4.emb (ix3 (0 : Fin 1) p j) = ix3 (1 : Fin 2) p j :=
  funext fun a => Fin.ext (by
    match a with
    | ⟨0, _⟩ => rfl
    | ⟨1, _⟩ => show 0 + 1 * p.val = p.val; omega
    | ⟨2, _⟩ => show 0 + 1 * j.val = j.val; omega)

/-- Plane 0 lies outside the second store's rectangle. -/
theorem plane0_not_mem (p : Fin 256) (j : Fin 1024) : ix3 (0 : Fin 2) p j ∉ r0_4.set := fun h => by
  have h0 : (1 : Nat) ≤ 0 := (Rect.mem_set_unit.mp h 0).1
  exact absurd h0 (by decide)

/-- So after both stores (the later one listed first) plane 1 holds the second store's value and plane 0 the first's. -/
theorem stores_plane1 (w4 w3 : Vec Ideal S1x256x1024 .f32) (p : Fin 256) (j : Fin 1024) :
    View.canon ([⟨r0_4, w4⟩, ⟨r0_3, w3⟩] : List (View.Piece (Elt Ideal) S2x256x1024 .f32)) (ix3 (1 : Fin 2) p j)
      = w4 (ix3 0 p j) :=
  (congrArg (View.canon ([⟨r0_4, w4⟩, ⟨r0_3, w3⟩] : List (View.Piece (Elt Ideal) S2x256x1024 .f32))) (plane1_emb p j)).symm.trans
    (View.canon_cons_emb r0_4 w4 [⟨r0_3, w3⟩] (ix3 (0 : Fin 1) p j))

theorem stores_plane0 (w4 w3 : Vec Ideal S1x256x1024 .f32) (p : Fin 256) (j : Fin 1024) :
    View.canon ([⟨r0_4, w4⟩, ⟨r0_3, w3⟩] : List (View.Piece (Elt Ideal) S2x256x1024 .f32)) (ix3 (0 : Fin 2) p j)
      = w3 (ix3 0 p j) :=
  (View.canon_cons_of_not_mem ⟨r0_4, w4⟩ [⟨r0_3, w3⟩] (plane0_not_mem p j)).trans
    ((congrArg (View.canon ([⟨r0_3, w3⟩] : List (View.Piece (Elt Ideal) S2x256x1024 .f32))) (plane0_emb p j)).symm.trans
      (View.canon_cons_emb r0_3 w3 [] (ix3 (0 : Fin 1) p j)))

theorem hz2 : (![0, 0] : Fin 2 → Nat) = fun _ => 0 := funext fun a => by fin_cases a <;> rfl

/-- The LSTM step of the 256 rows of three blocks, laid out as the output buffer is: plane 0 the new hidden states, plane 1 the
    new cell states. -/
def blockCell (x0 x1 x2 : Vec Ideal S256x1024 .f32) (x3 x4 : Vec Ideal S4096x1024 .bf16) (x5 : Vec Ideal S1x4096 .f32) :
    Vec Ideal S2x256x1024 .f32 := fun y =>
  if (y 0).val = 0 then
    newH (fun k => x0 (ix2 (y 1) k)) (fun k => x1 (ix2 (y 1) k)) (fun k => x2 (ix2 (y 1) k)) (fun q k => x3 (ix2 q k))
      (fun q k => x4 (ix2 q k)) (fun q => x5 (ix2 0 q)) (y 2)
  else
    newC (fun k => x0 (ix2 (y 1) k)) (fun k => x1 (ix2 (y 1) k)) (fun k => x2 (ix2 (y 1) k)) (fun q k => x3 (ix2 q k))
      (fun q k => x4 (ix2 q k)) (fun q => x5 (ix2 0 q)) (y 2)

/-- WHAT THE BODY LEAVES in the output buffer, from the six input blocks (input rows, hidden rows, cell rows, the two weight
    matrices, the bias row): the LSTM step of those rows. Every load reads its whole block. -/
theorem out_eq (x0 x1 x2 : Vec Ideal S256x1024 .f32) (x3 x4 : Vec Ideal S4096x1024 .bf16) (x5 : Vec Ideal S1x4096 .f32) :
    out0_6 (F := Ideal) x0 x1 x2 x3 x4 x5 = blockCell x0 x1 x2 x3 x4 x5 := by
  funext y
  obtain ⟨s, p, j, rfl⟩ : ∃ (s : Fin 2) (p : Fin 256) (j : Fin 1024), y = ix3 s p j := ⟨y 0, y 1, y 2, eq_ix3 y⟩
  unfold out0_6
  simp only [View.ld_unit_zero (S := S256x1024) hz2, View.ld_unit_zero (S := S4096x1024) hz2, View.ld_unit_zero (S := S1x4096) hz2]
  match s with
  | ⟨0, _⟩ => exact (stores_plane0 _ _ p j).trans (newH_apply x0 x1 x2 x3 x4 x5 0 p j)
  | ⟨1, _⟩ => exact (stores_plane1 _ _ p j).trans (stored_newC_apply x0 x1 x2 x3 x4 x5 0 p j)

end Cert.KernelIdeal.Block

end
-- ==== Proof.RegionInputs.lean ====
/-
  What the region finds in the arrays its windows stage.

  Before the region the host prepares five arrays from the arguments: the previous hidden state and the previous cell state
  are planes 0 and 1 of the state argument, each cut out and its leading unit axis dropped; the two weight matrices are
  narrowed to sixteen bits, which on the extended reals changes nothing; and the two bias vectors are added and given a
  leading unit axis, to make the one bias row. Read at an index each is an entry of an argument (or, for the bias row, the sum
  of two).
-/
import proofs.«121138_j72997264163163_2_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Inputs

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ) (c : Dev nD)

/-- The six arguments on core `c`, as arrays of extended reals: the input rows, the state (plane 0 the previous hidden state, plane
    1 the previous cell state), the input-to-gates weights and bias, the hidden-to-gates weights and bias. -/
abbrev argX : FVec Ideal S8192x1024 .f32 := m ((c : Thread nD τ).loc main_arg0)
abbrev argS : FVec Ideal S2x8192x1024 .f32 := m ((c : Thread nD τ).loc main_arg1)
abbrev argWx : FVec Ideal S4096x1024 .f32 := m ((c : Thread nD τ).loc main_arg2)
abbrev argBx : FVec Ideal S4096 .f32 := m ((c : Thread nD τ).loc main_arg3)
abbrev argWh : FVec Ideal S4096x1024 .f32 := m ((c : Thread nD τ).loc main_arg4)
abbrev argBh : FVec Ideal S4096 .f32 := m ((c : Thread nD τ).loc main_arg5)

/-- A plane of the state argument, read through the cut and the cast: entry `(r, k)` is the state's entry `(s, r, k)`. -/
theorem plane_apply (X : FVec Ideal S2x8192x1024 .f32) (s : Fin 2) (h : S2x8192x1024.Slices ![s.val, 0, 0] S1x8192x1024)
    (r : Fin 8192) (k : Fin 1024) :
    shapeCast S8192x1024 (extractStridedSlice S1x8192x1024 ![s.val, 0, 0] X h) shapeCasts_S1x8192x1024_S8192x1024 (ix2 r k)
      = X (ix3 s r k) := by
  rw [shapeCast_1ab_ab_apply]
  exact extractStridedSlice_apply _ X h _ (ix3 s r k) (fun a => by
    match a with
    | ⟨0, _⟩ => show s.val = s.val + 0; omega
    | ⟨1, _⟩ => show r.val = 0 + r.val; omega
    | ⟨2, _⟩ => show k.val = 0 + k.val; omega)

/-- The previous hidden state, as window 1 stages it: plane 0 of the state argument. -/
theorem hidden_apply (r : Fin 8192) (k : Fin 1024) :
    (V m c main_v1 : S8192x1024.Idx → EReal) (ix2 r k) = argS m c (ix3 0 r k) := by
  have e : (V m c main_v1 : S8192x1024.Idx → EReal)
      = shapeCast S8192x1024 (extractStridedSlice S1x8192x1024 ![0, 0, 0] (m ((c : Thread nD τ).loc main_arg1)) slices_S2x8192x1024_S1x8192x1024_0_0_0) shapeCasts_S1x8192x1024_S8192x1024 := by
    dsimp only [Gen.V, Gen.hostOps0]; after_results; rfl
  rw [e]
  exact plane_apply _ 0 slices_S2x8192x1024_S1x8192x1024_0_0_0 r k

/-- The previous cell state, as window 2 stages it: plane 1 of the state argument. -/
theorem cell_apply (r : Fin 8192) (k : Fin 1024) :
    (V m c main_v3 : S8192x1024.Idx → EReal) (ix2 r k) = argS m c (ix3 1 r k) := by
  have e : (V m c main_v3 : S8192x1024.Idx → EReal)
      = shapeCast S8192x1024 (extractStridedSlice S1x8192x1024 ![1, 0, 0] (m ((c : Thread nD τ).loc main_arg1)) slices_S2x8192x1024_S1x8192x1024_1_0_0) shapeCasts_S1x8192x1024_S8192x1024 := by
    dsimp only [Gen.V, Gen.hostOps0]; after_results; rfl
  rw [e]
  exact plane_apply _ 1 slices_S2x8192x1024_S1x8192x1024_1_0_0 r k

/-- The input-to-gates weights as window 3 stages them: the argument itself (narrowing to sixteen bits is the identity). -/
theorem wx_eq : (V m c main_v4 : S4096x1024.Idx → EReal) = argWx m c := by
  dsimp only [Gen.V, Gen.hostOps0]; after_results; rfl

/-- The hidden-to-gates weights as window 4 stages them: the argument itself. -/
theorem wh_eq : (V m c main_v5 : S4096x1024.Idx → EReal) = argWh m c := by
  dsimp only [Gen.V, Gen.hostOps0]; after_results; rfl

/-- The bias row as window 5 stages it: entry `(0, q)` is the sum of the two bias vectors' entries `q`. -/
theorem bias_apply (u : Fin 1) (q : Fin 4096) :
    (V m c main_v7 : S1x4096.Idx → EReal) (ix2 u q) = argBx m c (ix1 q) + argBh m c (ix1 q) := by
  have e : (V m c main_v7 : S1x4096.Idx → EReal)
      = shapeCast S1x4096 (addf (argBx m c) (argBh m c)) shapeCasts_S4096_S1x4096 := by
    dsimp only [Gen.V, Gen.hostOps0]; after_results; rfl
  rw [e, shapeCast_a_1a_apply]
  rfl

end Cert.KernelIdeal.Inputs

end
-- ==== Proof.KernelValue.lean ====
/-
  From blocks to the whole array: the kernel's result is the LSTM step of the whole batch.

  The grid has 32 points. Point `t` is given rows `256 t … 256 t + 255` of the input, of the previous hidden state and of the
  previous cell state, and the whole of both weight matrices and of the bias row; it writes back rows `256 t … 256 t + 255` of
  both planes of the result. A row of the step depends on that row of the input and of the state only (and on all the weights),
  so what point `t` writes back is block `t` of the step of the WHOLE batch; the 32 blocks tile the result, which therefore
  ends holding `LstmCell.cell` of the arguments.
-/
import proofs.«121138_j72997264163163_2_alg».proof.Proof.Gen.KernelIdeal.Value
import proofs.«121138_j72997264163163_2_alg».proof.Proof.KernelBlock
import proofs.«121138_j72997264163163_2_alg».proof.Proof.RegionInputs

noncomputable section

namespace Cert.KernelIdeal.Whole

open Cert.KernelIdeal Cert.KernelIdeal.Gen Idealize.ShloMosaic Idealize.ShloMosaic.TcCoe Idealize.ShloMosaic.ValueIdx
  Idealize.SL.Sem Cert.LstmCell
open Idealize.ShloMosaic.Pipeline (Dat)

/-! ## A row of the step depends on that row only -/

/-- If row `p` of three blocks is row `r` of the input and of the two planes of the state, and the weight blocks and the bias
    row are the weights and the summed biases, then the step of the blocks at `(s, p, j)` is the step of the batch at `(s, r, j)`. -/
theorem blockCell_eq_cell (x0 x1 x2 : Vec Ideal S256x1024 .f32) (x3 x4 : Vec Ideal S4096x1024 .bf16) (x5 : Vec Ideal S1x4096 .f32)
    (X : FVec Ideal ⟨2, ![8192, 1024]⟩ .f32) (S : FVec Ideal ⟨3, ![2, 8192, 1024]⟩ .f32)
    (Wx Wh : FVec Ideal ⟨2, ![4096, 1024]⟩ .f32) (bx bh : FVec Ideal ⟨1, ![4096]⟩ .f32)
    (s : Fin 2) (p : Fin 256) (j : Fin 1024) (r : Fin 8192)
    (h0 : ∀ k, x0 (ix2 p k) = X (ix2 r k)) (h1 : ∀ k, x1 (ix2 p k) = S (ix3 0 r k)) (h2 : ∀ k, x2 (ix2 p k) = S (ix3 1 r k))
    (h3 : ∀ q k, x3 (ix2 q k) = Wx (ix2 q k)) (h4 : ∀ q k, x4 (ix2 q k) = Wh (ix2 q k))
    (h5 : ∀ q, x5 (ix2 0 q) = bx (ix1 q) + bh (ix1 q)) :
    Block.blockCell x0 x1 x2 x3 x4 x5 (ix3 s p j) = cell X S Wx Wh bx bh (ix3 s r j) := by
  have e : Block.blockCell x0 x1 x2 x3 x4 x5 (ix3 s p j)
      = if s.val = 0 then
          newH (fun k => x0 (ix2 p k)) (fun k => x1 (ix2 p k)) (fun k => x2 (ix2 p k)) (fun q k => x3 (ix2 q k))
            (fun q k => x4 (ix2 q k)) (fun q => x5 (ix2 0 q)) j
        else
          newC (fun k => x0 (ix2 p k)) (fun k => x1 (ix2 p k)) (fun k => x2 (ix2 p k)) (fun q k => x3 (ix2 q k))
            (fun q k => x4 (ix2 q k)) (fun q => x5 (ix2 0 q)) j := rfl
  have e' : cell X S Wx Wh bx bh (ix3 s r j)
      = if s.val = 0 then
          newH (fun k => X (ix2 r k)) (fun k => S (ix3 0 r k)) (fun k => S (ix3 1 r k)) (fun q k => Wx (ix2 q k))
            (fun q k => Wh (ix2 q k)) (fun q => bx (ix1 q) + bh (ix1 q)) j
        else
          newC (fun k => X (ix2 r k)) (fun k => S (ix3 0 r k)) (fun k => S (ix3 1 r k)) (fun q k => Wx (ix2 q k))
            (fun q k => Wh (ix2 q k)) (fun q => bx (ix1 q) + bh (ix1 q)) j := rfl
  rw [e, e', funext h0, funext h1, funext h2, funext (fun q => funext (h3 q)), funext (fun q => funext (h4 q)), funext h5]

variable (m : (ℓ : Loc nD τ sig) → Buf (Elt Ideal) ℓ) (ρ : Dev nD → PrngReg)

/-- The step of the whole batch, of the arguments as launched on core `c`. -/
abbrev result (c : Dev nD) : FVec Ideal S2x8192x1024 .f32 :=
  cell (Inputs.argX m c) (Inputs.argS m c) (Inputs.argWx m c) (Inputs.argWh m c) (Inputs.argBx m c) (Inputs.argBh m c)

/-! ## Which block each window holds at a point -/

/-- The index maps, decided over the 32 points: the three row-blocked inputs move with the output's row block, the weights
    and the bias row stay at block (0, 0), the output's block is (0, row block, 0), and the row block is at most 31. -/
theorem idx_facts : ∀ t : Fin cfg0.N,
    win0_0.index t (0 : Fin 2) = win0_6.index t (1 : Fin 3) ∧ win0_0.index t (1 : Fin 2) = 0
    ∧ win0_1.index t (0 : Fin 2) = win0_6.index t (1 : Fin 3) ∧ win0_1.index t (1 : Fin 2) = 0
    ∧ win0_2.index t (0 : Fin 2) = win0_6.index t (1 : Fin 3) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (2 : Fin 3) = 0 ∧ win0_6.index t (1 : Fin 3) ≤ 31 :=
  (by decide +kernel : ∀ t : Fin grid0.N, _)

/-- Every row block is some point's. -/
theorem idx_onto : ∀ q : Fin 32, ∃ t : Fin cfg0.N, win0_6.index t (1 : Fin 3) = q.val :=
  (by decide +kernel : ∀ q : Fin 32, ∃ t : Fin grid0.N, win0_6.index t (1 : Fin 3) = q.val)

section Blocks

variable (c : Dev nD) (t : Fin cfg0.N)

/-- Row `p` of point `t`'s input block is row `256 · (row block) + p` of the input argument. -/
theorem input_rows (p : Fin 256) (k : Fin 1024) (r : Fin 8192) (hr : r.val = win0_6.index t (1 : Fin 3) * 256 + p.val) :
    iblk m c 0 t (ix2 p k) = Inputs.argX m c (ix2 r k) := by
  obtain ⟨e0, e1, -⟩ := idx_facts t
  show V m c main_arg0 (((cfg0.win 0).blk t).view.emb (ix2 p k)) = _
  rw [V_main_arg0]
  refine congrArg (Inputs.argX m c) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The same row of the previous hidden state: plane 0 of the state argument. -/
theorem hidden_rows (p : Fin 256) (k : Fin 1024) (r : Fin 8192) (hr : r.val = win0_6.index t (1 : Fin 3) * 256 + p.val) :
    iblk m c 1 t (ix2 p k) = Inputs.argS m c (ix3 0 r k) := by
  obtain ⟨-, -, e0, e1, -⟩ := idx_facts t
  have he : ((cfg0.win 1).blk t).view.emb (ix2 p k) = ix2 r k := funext fun a => Fin.ext (by
    match a with
    | ⟨0, _⟩ => show win0_1.index t (0 : Fin 2) * 256 + 1 * p.val = r.val; omega
    | ⟨1, _⟩ => show win0_1.index t (1 : Fin 2) * 1024 + 1 * k.val = k.val; omega)
  exact (congrArg (V m c main_v1 : S8192x1024.Idx → EReal) he).trans (Inputs.hidden_apply m c r k)

/-- The same row of the previous cell state: plane 1 of the state argument. -/
theorem cell_rows (p : Fin 256) (k : Fin 1024) (r : Fin 8192) (hr : r.val = win0_6.index t (1 : Fin 3) * 256 + p.val) :
    iblk m c 2 t (ix2 p k) = Inputs.argS m c (ix3 1 r k) := by
  obtain ⟨-, -, -, -, e0, e1, -⟩ := idx_facts t
  have he : ((cfg0.win 2).blk t).view.emb (ix2 p k) = ix2 r k := funext fun a => Fin.ext (by
    match a with
    | ⟨0, _⟩ => show win0_2.index t (0 : Fin 2) * 256 + 1 * p.val = r.val; omega
    | ⟨1, _⟩ => show win0_2.index t (1 : Fin 2) * 1024 + 1 * k.val = k.val; omega)
  exact (congrArg (V m c main_v3 : S8192x1024.Idx → EReal) he).trans (Inputs.cell_apply m c r k)

/-- Every point holds the whole of the input-to-gates weights, -/
theorem wx_block (q : Fin 4096) (k : Fin 1024) : iblk m c 3 t (ix2 q k) = Inputs.argWx m c (ix2 q k) := by
  obtain ⟨-, -, -, -, -, -, e0, e1, -⟩ := idx_facts t
  have he : ((cfg0.win 3).blk t).view.emb (ix2 q k) = ix2 q k := funext fun a => Fin.ext (by
    match a with
    | ⟨0, _⟩ => show win0_3.index t (0 : Fin 2) * 4096 + 1 * q.val = q.val; omega
    | ⟨1, _⟩ => show win0_3.index t (1 : Fin 2) * 1024 + 1 * k.val = k.val; omega)
  exact (congrArg (V m c main_v4 : S4096x1024.Idx → EReal) he).trans (congrFun (Inputs.wx_eq m c) (ix2 q k))

/-- of the hidden-to-gates weights, -/
theorem wh_block (q : Fin 4096) (k : Fin 1024) : iblk m c 4 t (ix2 q k) = Inputs.argWh m c (ix2 q k) := by
  obtain ⟨-, -, -, -, -, -, -, -, e0, e1, -⟩ := idx_facts t
  have he : ((cfg0.win 4).blk t).view.emb (ix2 q k) = ix2 q k := funext fun a => Fin.ext (by
    match a with
    | ⟨0, _⟩ => show win0_4.index t (0 : Fin 2) * 4096 + 1 * q.val = q.val; omega
    | ⟨1, _⟩ => show win0_4.index t (1 : Fin 2) * 1024 + 1 * k.val = k.val; omega)
  exact (congrArg (V m c main_v5 : S4096x1024.Idx → EReal) he).trans (congrFun (Inputs.wh_eq m c) (ix2 q k))

/-- and the whole bias row: the two bias vectors added. -/
theorem bias_block (q : Fin 4096) : iblk m c 5 t (ix2 0 q) = Inputs.argBx m c (ix1 q) + Inputs.argBh m c (ix1 q) := by
  obtain ⟨-, -, -, -, -, -, -, -, -, -, e0, e1, -⟩ := idx_facts t
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 4096 + 1 * q.val = q.val; omega)
  exact (congrArg (V m c main_v7 : S1x4096.Idx → EReal) he).trans (Inputs.bias_apply m c 0 q)

end Blocks

/-! ## What a point writes back, the cover, and the run -/

/-- WHAT POINT `t` WRITES BACK is block `t` of the step of the whole batch. -/
theorem flushed_eq (c : Dev nD) (t : Fin cfg0.N) :
    (dats m 0 c).flushed 6 t = ((cfg0.win 6).blk t).view.read (Elt Ideal) (result m c) := by
  rw [Value.flushed6, Block.out_eq (iblk m c 0 t) (iblk m c 1 t) (iblk m c 2 t) (iblk m c 3 t) (iblk m c 4 t) (iblk m c 5 t)]
  funext y
  obtain ⟨s, p, j, rfl⟩ : ∃ (s : Fin 2) (p : Fin 256) (j : Fin 1024), y = ix3 s p j := ⟨y 0, y 1, y 2, eq_ix3 y⟩
  obtain ⟨-, -, -, -, -, -, -, -, -, -, -, -, e0, e2, e1⟩ := idx_facts t
  have hr : win0_6.index t (1 : Fin 3) * 256 + p.val < 8192 := by have := p.isLt; omega
  have he : ((cfg0.win 6).blk t).view.emb (ix3 s p j) = ix3 s (⟨win0_6.index t (1 : Fin 3) * 256 + p.val, hr⟩ : Fin 8192) j :=
    funext fun a => Fin.ext (by
      match a with
      | ⟨0, _⟩ => show win0_6.index t (0 : Fin 3) * 2 + 1 * s.val = s.val; omega
      | ⟨1, _⟩ => show win0_6.index t (1 : Fin 3) * 256 + 1 * p.val = win0_6.index t (1 : Fin 3) * 256 + p.val; omega
      | ⟨2, _⟩ => show win0_6.index t (2 : Fin 3) * 1024 + 1 * j.val = j.val; omega)
  show Block.blockCell (iblk m c 0 t) (iblk m c 1 t) (iblk m c 2 t) (iblk m c 3 t) (iblk m c 4 t) (iblk m c 5 t) (ix3 s p j)
    = result m c (((cfg0.win 6).blk t).view.emb (ix3 s p j))
  refine (blockCell_eq_cell (iblk m c 0 t) (iblk m c 1 t) (iblk m c 2 t) (iblk m c 3 t) (iblk m c 4 t) (iblk m c 5 t)
    (Inputs.argX m c) (Inputs.argS m c) (Inputs.argWx m c) (Inputs.argWh m c) (Inputs.argBx m c) (Inputs.argBh m c)
    s p j ⟨win0_6.index t (1 : Fin 3) * 256 + p.val, hr⟩
    (fun k => input_rows m c t p k _ rfl) (fun k => hidden_rows m c t p k _ rfl) (fun k => cell_rows m c t p k _ rfl)
    (fun q k => wx_block m c t q k) (fun q k => wh_block m c t q k) (fun q => bias_block m c t q)).trans ?_
  exact (congrArg (result m c) he).symm

/-- An index of the result is in point `t`'s block iff each coordinate is in the block's range on its axis. -/
theorem mem_blk (t : Fin cfg0.N) (i : S2x8192x1024.Idx) :
    i ∈ ((cfg0.win 6).blk t).view.set ↔ ∀ a : Fin 3, win0_6.index t a * S2x256x1024.size a ≤ (i a).val
      ∧ (i a).val < win0_6.index t a * S2x256x1024.size a + S2x256x1024.size a := by
  show i ∈ ((View.whole main_v8).slice (win0_6.rect t)).set ↔ _
  rw [View.set_slice_whole, Rect.mem_set_unit]
  exact Iff.rfl

/-- THE COVER: row `r` of either plane is in the block of the point whose row block is `r / 256`. -/
theorem cover (i : S2x8192x1024.Idx) : ∃ t : Fin cfg0.N, (cfg0.win 6).flush t = true ∧ i ∈ ((cfg0.win 6).blk t).view.set := by
  have h0 : (i 0).val < 2 := (i 0).isLt
  have h1 : (i 1).val < 8192 := (i 1).isLt
  have h2 : (i 2).val < 1024 := (i 2).isLt
  obtain ⟨t, ht⟩ := idx_onto ⟨(i 1).val / 256, by omega⟩
  have q1 : win0_6.index t (1 : Fin 3) = (i 1).val / 256 := ht
  obtain ⟨-, -, -, -, -, -, -, -, -, -, -, -, e0, e2, -⟩ := idx_facts t
  refine ⟨t, flush0_6 t, ?_⟩
  rw [mem_blk]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- THE RESULT ARRAY after the run: the step of the whole batch. -/
theorem final (c : Dev nD) : (dats m 0 c).arrAt 6 cfg0.N = result m c :=
  (dats m 0 c).arrAt_eq_of_cover 6 (result m c) (fun t _ => flushed_eq m c t) cover

/-- The kernel's run, read: it terminates without a fault, the result array holding the step of the whole batch, the arguments
    unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.ReferenceValue.lean ====
/-
  The reference computes the LSTM step of the whole batch.

  Its text, read at an index: the gate pre-activations are `((x · Wxᵀ + bx) + h · Whᵀ) + bh` — the biases added one after the
  other, each copied into every row, where the specification adds their sum at the end: equal by commutativity and associativity
  of `+` (`LstmCell.gate_regroup`) —; the four gates are the four 1024-column cuts of that array; a logistic function is spelt
  `1 / (1 + exp (−z))`, which is the extended-real logistic function by definition (the literal `1.0` denotes the real `1`);
  the new cell and hidden states are combined coordinate by coordinate; and the two results, each given a leading unit axis, are
  joined along that axis: plane 0 the new hidden state, plane 1 the new cell state.
-/
import proofs.«121138_j72997264163163_2_alg».proof.Proof.Gen.ReferenceIdeal.Read
import proofs.«121138_j72997264163163_2_alg».proof.Proof.LstmCell

noncomputable section

open scoped BigOperators

namespace Cert.ReferenceIdeal.RefValue

open Cert.ReferenceIdeal Cert.ReferenceIdeal.Gen Cert.ReferenceIdeal.Read Idealize.ShloMosaic Idealize.ShloMosaic.ValueIdx
  Cert.LstmCell

/-- The literal `1.0` denotes the real number one. -/
theorem one_f32 : Ideal.ofBits .f32 0x3F800000#32 = 1 := IdealRules.sign_bit.ideal_onePat .f32

/-- `1 / (1 + exp (−z))` is the logistic function of `z`, on every extended real. -/
theorem sigmoid_eq (z : EReal) :
    Ideal.div (Ideal.ofBits .f32 0x3F800000#32) (Ideal.ofBits .f32 0x3F800000#32 + Ideal.exp (-z)) = Ideal.logistic z := by
  rw [one_f32]; rfl

variable (x0 : (⟨S8192x1024, .f32⟩ : BufTy).Contents (Elt Ideal)) (x1 : (⟨S2x8192x1024, .f32⟩ : BufTy).Contents (Elt Ideal))
  (x2 : (⟨S4096x1024, .f32⟩ : BufTy).Contents (Elt Ideal)) (x3 : (⟨S4096, .f32⟩ : BufTy).Contents (Elt Ideal))
  (x4 : (⟨S4096x1024, .f32⟩ : BufTy).Contents (Elt Ideal)) (x5 : (⟨S4096, .f32⟩ : BufTy).Contents (Elt Ideal))

/-- THE GATES. Entry `(r, q)` of the reference's array of pre-activations is gate column `q` of row `r`, with the previous
    hidden state read from plane 0 of the state argument and the two biases regrouped into their sum. -/
theorem gates_apply (r : Fin 8192) (q : Fin 4096) :
    val_main_v12 (F := Ideal) x0 x1 x2 x3 x4 x5 (ix2 r q)
      = gate (fun k => x0 (ix2 r k)) (fun k => x1 (ix3 0 r k)) (fun q k => x2 (ix2 q k)) (fun q k => x4 (ix2 q k))
          (fun q => x3 (ix1 q) + x5 (ix1 q)) q := by
  have el4 : ∀ k : Fin 1024, lidx_main_v4 (ix2 r q) k = ix2 r k := fun k =>
    funext fun a => Fin.ext (by match a with | ⟨0, _⟩ => rfl | ⟨1, _⟩ => rfl)
  have er4 : ∀ k : Fin 1024, ridx_main_v4 (ix2 r q) k = ix2 q k := fun k =>
    funext fun a => Fin.ext (by match a with | ⟨0, _⟩ => rfl | ⟨1, _⟩ => rfl)
  have el8 : ∀ k : Fin 1024, idx_main_v0 (idx_main_v1 (lidx_main_v8 (ix2 r q) k)) = ix3 0 r k := fun k =>
    funext fun a => Fin.ext (by
      have hr := r.isLt; have hk := k.isLt
      match a with
      | ⟨0, _⟩ => rfl
      | ⟨1, _⟩ => show (r.val * 1024 + k.val) / 1024 % 8192 = r.val; omega
      | ⟨2, _⟩ => show (r.val * 1024 + k.val) % 1024 = k.val; omega)
  have er8 : ∀ k : Fin 1024, ridx_main_v8 (ix2 r q) k = ix2 q k := fun k =>
    funext fun a => Fin.ext (by match a with | ⟨0, _⟩ => rfl | ⟨1, _⟩ => rfl)
  have eb3 : idx_main_v5 (idx_main_v6 (ix2 r q)) = ix1 q := funext fun a => Fin.ext (by match a with | ⟨0, _⟩ => rfl)
  have eb5 : idx_main_v10 (idx_main_v11 (ix2 r q)) = ix1 q := funext fun a => Fin.ext (by match a with | ⟨0, _⟩ => rfl)
  rw [val_main_v12_apply, val_main_v9_apply, val_main_v7_apply, val_main_v4_apply, val_main_v6_apply, val_main_v5_apply,
    val_main_v8_apply, val_main_v11_apply, val_main_v10_apply]
  simp only [val_main_v1_apply, val_main_v0_apply, el4, er4, el8, er8, eb3, eb5, Ideal.addf_def]
  exact gate_regroup _ _ _ _

/-- A 1024-column cut of the pre-activations read at `(r, j)` is gate column `1024 g + j` of row `r`. -/
theorem cut0 (r : Fin 8192) (j : Fin 1024) : idx_main_v13 (ix2 r j) = ix2 r (col 0 j) :=
  funext fun a => Fin.ext (by match a with | ⟨0, _⟩ => rfl | ⟨1, _⟩ => show j.val = 0 * 1024 + j.val; omega)
theorem cut1 (r : Fin 8192) (j : Fin 1024) : idx_main_v14 (ix2 r j) = ix2 r (col 1 j) :=
  funext fun a => Fin.ext (by match a with | ⟨0, _⟩ => rfl | ⟨1, _⟩ => rfl)
theorem cut2 (r : Fin 8192) (j : Fin 1024) : idx_main_v15 (ix2 r j) = ix2 r (col 2 j) :=
  funext fun a => Fin.ext (by match a with | ⟨0, _⟩ => rfl | ⟨1, _⟩ => rfl)
theorem cut3 (r : Fin 8192) (j : Fin 1024) : idx_main_v16 (ix2 r j) = ix2 r (col 3 j) :=
  funext fun a => Fin.ext (by match a with | ⟨0, _⟩ => rfl | ⟨1, _⟩ => rfl)

/-- The input gate: the logistic function of gate column `j`. -/
theorem input_gate (r : Fin 8192) (j : Fin 1024) :
    val_main_v22 (F := Ideal) x0 x1 x2 x3 x4 x5 (ix2 r j)
      = Ideal.logistic (val_main_v12 (F := Ideal) x0 x1 x2 x3 x4 x5 (ix2 r (col 0 j))) := by
  rw [val_main_v22_apply, val_main_v21_apply, val_main_cst_0_apply, val_main_v20_apply, val_main_v19_apply, val_main_cst_apply,
    val_main_v18_apply, val_main_v17_apply, val_main_v13_apply, cut0]
  exact sigmoid_eq _

/-- The forget gate: the logistic function of gate column `1024 + j`. -/
theorem forget_gate (r : Fin 8192) (j : Fin 1024) :
    val_main_v28 (F := Ideal) x0 x1 x2 x3 x4 x5 (ix2 r j)
      = Ideal.logistic (val_main_v12 (F := Ideal) x0 x1 x2 x3 x4 x5 (ix2 r (col 1 j))) := by
  rw [val_main_v28_apply, val_main_v27_apply, val_main_cst_2_apply, val_main_v26_apply, val_main_v25_apply, val_main_cst_1_apply,
    val_main_v24_apply, val_main_v23_apply, val_main_v14_apply, cut1]
  exact sigmoid_eq _

/-- The candidate: the hyperbolic tangent of gate column `2048 + j`. -/
theorem candidate (r : Fin 8192) (j : Fin 1024) :
    val_main_v29 (F := Ideal) x0 x1 x2 x3 x4 x5 (ix2 r j)
      = Ideal.tanh (val_main_v12 (F := Ideal) x0 x1 x2 x3 x4 x5 (ix2 r (col 2 j))) := by
  rw [val_main_v29_apply, val_main_v15_apply, cut2]
  rfl

/-- The output gate: the logistic function of gate column `3072 + j`. -/
theorem output_gate (r : Fin 8192) (j : Fin 1024) :
    val_main_v35 (F := Ideal) x0 x1 x2 x3 x4 x5 (ix2 r j)
      = Ideal.logistic (val_main_v12 (F := Ideal) x0 x1 x2 x3 x4 x5 (ix2 r (col 3 j))) := by
  rw [val_main_v35_apply, val_main_v34_apply, val_main_cst_4_apply, val_main_v33_apply, val_main_v32_apply, val_main_cst_3_apply,
    val_main_v31_apply, val_main_v30_apply, val_main_v16_apply, cut3]
  exact sigmoid_eq _

/-- The previous cell state the reference multiplies the forget gate with: plane 1 of the state argument. -/
theorem prev_cell (r : Fin 8192) (j : Fin 1024) : val_main_v3 (F := Ideal) x1 (ix2 r j) = x1 (ix3 1 r j) := by
  rw [val_main_v3_apply, val_main_v2_apply]
  refine congrArg x1 (funext fun a => Fin.ext ?_)
  have hr := r.isLt; have hj := j.isLt
  match a with
  | ⟨0, _⟩ => rfl
  | ⟨1, _⟩ => show (r.val * 1024 + j.val) / 1024 % 8192 = r.val; omega
  | ⟨2, _⟩ => show (r.val * 1024 + j.val) % 1024 = j.val; omega

/-- THE NEW CELL STATE of row `r` at coordinate `j`. -/
theorem new_cell (r : Fin 8192) (j : Fin 1024) :
    val_main_v38 (F := Ideal) x0 x1 x2 x3 x4 x5 (ix2 r j) = state x0 x1 x2 x4 x3 x5 r j := by
  rw [val_main_v38_apply, val_main_v36_apply, val_main_v37_apply, forget_gate, input_gate, candidate, prev_cell,
    gates_apply, gates_apply, gates_apply]
  rfl

/-- THE NEW HIDDEN STATE of row `r` at coordinate `j`. -/
theorem new_hidden (r : Fin 8192) (j : Fin 1024) :
    val_main_v40 (F := Ideal) x0 x1 x2 x3 x4 x5 (ix2 r j) = hidden x0 x1 x2 x4 x3 x5 r j := by
  rw [val_main_v40_apply, val_main_v39_apply, output_gate, new_cell, gates_apply]
  rfl

/-- THE REFERENCE'S RESULT is the step of the whole batch: the join of the two planes, read at `(s, r, j)`. -/
theorem result_eq : val_main_v43 (F := Ideal) x0 x1 x2 x3 x4 x5 = cell x0 x1 x2 x4 x3 x5 := by
  funext i
  obtain ⟨s, r, j, rfl⟩ : ∃ (s : Fin 2) (r : Fin 8192) (j : Fin 1024), i = ix3 s r j := ⟨i 0, i 1, i 2, eq_ix3 i⟩
  unfold val_main_v43
  match s with
  | ⟨0, _⟩ =>
    refine (concatenate_pair_apply_left (t := S2x8192x1024) (s₁ := S1x8192x1024) (s₂ := S1x8192x1024) (0 : Fin 3) _ _
      concatenates_S1x8192x1024_S1x8192x1024_S2x8192x1024_d0
      (ix3 (0 : Fin 2) r j) rfl (ix3 (0 : Fin 1) r j) (fun b => by
        match b with | ⟨0, _⟩ => rfl | ⟨1, _⟩ => rfl | ⟨2, _⟩ => rfl)).trans ?_
    rw [val_main_v41_apply, show idx_main_v41 (ix3 (0 : Fin 1) r j) = ix2 r j from
      funext fun a => Fin.ext (by match a with | ⟨0, _⟩ => rfl | ⟨1, _⟩ => rfl), new_hidden]
    rfl
  | ⟨1, _⟩ =>
    refine (concatenate_pair_apply_right (t := S2x8192x1024) (s₁ := S1x8192x1024) (s₂ := S1x8192x1024) (0 : Fin 3) _ _
      concatenates_S1x8192x1024_S1x8192x1024_S2x8192x1024_d0
      (ix3 (1 : Fin 2) r j) rfl rfl (ix3 (0 : Fin 1) r j) (fun b hb => by
        match b with | ⟨0, _⟩ => exact absurd rfl hb | ⟨1, _⟩ => rfl | ⟨2, _⟩ => rfl) rfl).trans ?_
    rw [val_main_v42_apply, show idx_main_v42 (ix3 (0 : Fin 1) r j) = ix2 r j from
      funext fun a => Fin.ext (by match a with | ⟨0, _⟩ => rfl | ⟨1, _⟩ => rfl), new_cell]
    rfl

end Cert.ReferenceIdeal.RefValue

end
-- ==== Proof.lean ====
/-
  An LSTM cell step, computed by a tiled kernel and by a plain array program: the same function of the arguments.

  Both programs take a batch of 8192 input rows, a state holding the previous hidden and cell states, two weight matrices (4096
  gate columns, one row each) and two bias vectors, and return the new hidden and cell states stacked into one array. The
  mathematics is `Proof/LstmCell.lean`: `LstmCell.cell`, the step row by row on the extended reals.

  * The kernel (`Proof/KernelBlock.lean`, `Proof/RegionInputs.lean`, `Proof/KernelValue.lean`): each of 32 grid points is given
    256 rows of the input and of the state, the whole weights and the pre-summed bias row, forms every gate of its rows with two
    products that contract the last axis of both operands, and writes back 256 rows of both planes of the result. A row of the
    step depends on that row only, so the blocks written back are the blocks of `cell` of the arguments, and they tile the result.
  * The reference (`Proof/ReferenceValue.lean`): the same products over the whole batch, the two biases added one after the
    other, the logistic function spelt `1 / (1 + exp (−z))`, the two planes joined at the end — `cell` again, entry by entry.

  The two sides differ only in how a gate's four terms are grouped under `+` (commutativity and associativity, no cancellation)
  and in spelling, so nothing depends on the inputs being finite: the precondition is never opened. The kernel's reading on the
  extended reals is its own text with no operation replaced, so that reading has nothing further to preserve.
-/
import proofs.«121138_j72997264163163_2_alg».proof.Defs
import proofs.«121138_j72997264163163_2_alg».proof.Proof.Gen.Kernel
import proofs.«121138_j72997264163163_2_alg».proof.Proof.Gen.Kernel.Skeleton
import proofs.«121138_j72997264163163_2_alg».proof.Proof.Gen.Kernel.Launch
import proofs.«121138_j72997264163163_2_alg».proof.Proof.Gen.Kernel.Points
import proofs.«121138_j72997264163163_2_alg».proof.Proof.Gen.Kernel.Frame
import proofs.«121138_j72997264163163_2_alg».proof.Proof.Gen.KernelIdeal
import proofs.«121138_j72997264163163_2_alg».proof.Proof.Gen.KernelIdeal.Skeleton
import proofs.«121138_j72997264163163_2_alg».proof.Proof.Gen.KernelIdeal.Launch
import proofs.«121138_j72997264163163_2_alg».proof.Proof.Gen.KernelIdeal.Points
import proofs.«121138_j72997264163163_2_alg».proof.Proof.Gen.KernelIdeal.Frame
import proofs.«121138_j72997264163163_2_alg».proof.Proof.Gen.ReferenceIdeal
import proofs.«121138_j72997264163163_2_alg».proof.Proof.Gen.Pre_finite_inputs
import proofs.«121138_j72997264163163_2_alg».proof.Proof.Gen.KernelIdeal.Value
import proofs.«121138_j72997264163163_2_alg».proof.Proof.Gen.ReferenceIdeal.Run
import proofs.«121138_j72997264163163_2_alg».proof.Proof.Gen.ReferenceIdeal.Read
import proofs.«121138_j72997264163163_2_alg».proof.Proof.KernelValue
import proofs.«121138_j72997264163163_2_alg».proof.Proof.ReferenceValue
import Idealize.ShloMosaic.Adequacy
import Idealize.ShloMosaic.Init

noncomputable section

namespace Cert.Proof

open Idealize.ShloMosaic Idealize.SL.Sem

/-- The kernel as compiled, and its reading on the extended reals, run to the end without a fault and leave their arguments as
    they found them (the generated frame run). -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `LstmCell.cell` of those
    arguments: the kernel by its blocks (`Whole.run`), the reference by its last stage read entry by entry (`result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
